-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_sqrt_dkey" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn_part1 {F : FTy → Type} [FloatOps F] (main_arg3 : IVec S16x2048x2048 32) (main_v13 : IVec S_ 1) (main_v15 : IVec S16x2048x2048 1) (main_c_5 : IVec S_ 32) : IVec S_ 1 :=
  let main_v16 : IVec S16x2048x2048 32 := broadcastInDim S16x2048x2048 ![] bcast_S_S16x2048x2048 main_c_5
  let main_v17 : IVec S16x2048x2048 1 := cmpi .eq main_arg3 main_v16
  let main_v18 : IVec S16x2048x2048 1 := ori main_v15 main_v17
  let main_c_6 : IVec S_ 1 := constantI S_ 1 1#1
  let main_v19 : IVec S_ 1 := (fun x v => Host.reduce IntOp.andi x v reducesTo_S16x2048x2048_S_d0_1_2 h_S_) main_v18 main_c_6
  let main_v20 : IVec S_ 1 := andi main_v13 main_v19
  main_v20

def fn {F : FTy → Type} [FloatOps F] (main_arg0 : FVec F S16x2048x128 .f32) (main_arg1 : FVec F S16x2048x128 .f32) (main_arg2 : FVec F S16x2048x128 .f32) (main_arg3 : IVec S16x2048x2048 32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  let main_c_4 : IVec S_ 32 := constantI S_ 32 0#32
  let main_v14 : IVec S16x2048x2048 32 := broadcastInDim S16x2048x2048 ![] bcast_S_S16x2048x2048 main_c_4
  let main_v15 : IVec S16x2048x2048 1 := cmpi .eq main_arg3 main_v14
  let main_c_5 : IVec S_ 32 := constantI S_ 32 1#32
  fn_part1 (F := F) main_arg3 main_v13 main_v15 main_c_5
-- ==== Kernel.lean ====
abbrev S16x2048x128 : Shape := ⟨3, ![16, 2048, 128]⟩
abbrev S16x2048x2048 : Shape := ⟨3, ![16, 2048, 2048]⟩
abbrev S1x512x128 : Shape := ⟨3, ![1, 512, 128]⟩
abbrev S1x2048x128 : Shape := ⟨3, ![1, 2048, 128]⟩
abbrev S1x512x2048 : Shape := ⟨3, ![1, 512, 2048]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i32⟩
  | .hbm, ⟨4, _⟩ => ⟨S16x2048x128, .bf16⟩
  | .hbm, ⟨5, _⟩ => ⟨S16x2048x128, .bf16⟩
  | .hbm, ⟨6, _⟩ => ⟨S16x2048x128, .bf16⟩
  | .hbm, ⟨7, _⟩ => ⟨S16x2048x128, .f32⟩
  | .hbm, ⟨8, _⟩ => ⟨S16x2048x2048, .f32⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512x2048, .i32⟩
  | .local _ .vmem, ⟨7, _⟩ => ⟨S1x512x2048, .i32⟩
  | .local _ .vmem, ⟨8, _⟩ => ⟨S1x512x128, .f32⟩
  | .local _ .vmem, ⟨9, _⟩ => ⟨S1x512x128, .f32⟩
  | .local _ .vmem, ⟨10, _⟩ => ⟨S1x512x2048, .f32⟩
  | .local _ .vmem, ⟨11, _⟩ => ⟨S1x512x2048, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x128_S1x512x128 : S512x128.ShapeCasts S1x512x128
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S16x2048x128.size a
  hwx0_0 : ∀ i : grid0.Coords, EltTy.bits .bf16 = 32 ∨ (Rect.block (s := S16x2048x128) S1x512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .bf16 = 32 ∨ (Rect.block (s := S16x2048x128) S1x2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .bf16 = 32 ∨ (Rect.block (s := S16x2048x128) S1x2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .i32 = 32 ∨ (Rect.block (s := S16x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S16x2048x128.size a
  hwx0_4 : ∀ i : grid0.Coords, EltTy.bits .f32 = 32 ∨ (Rect.block (s := S16x2048x128) S1x512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S16x2048x2048.size a
  hwx0_5 : ∀ i : grid0.Coords, EltTy.bits .f32 = 32 ∨ (Rect.block (s := S16x2048x2048) S1x512x2048.size (cc0_transform_5 i) (hinb0_5 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i32⟩
  | .hbm, ⟨4, _⟩ => ⟨S16x2048x2048, .f32⟩
  | .hbm, ⟨5, _⟩ => ⟨S16x2048x2048, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S_, .f32⟩
  | .hbm, ⟨20, _⟩ => ⟨S16x2048, .f32⟩
  | .hbm, ⟨21, _⟩ => ⟨S16x2048, .f32⟩
  | .hbm, ⟨22, _⟩ => ⟨S16x2048x1, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Consts.lean ====
/-
  The float patterns the two programs spell, as the extended reals they denote.

  `1.0` is 1, the zero pattern is 0, the pattern of negative infinity is the bottom element, and the reference's
  divisor — the single-precision rounding of the square root of 128 — is the dyadic rational 11863283 / 2^20.
  The fill value for masked scores (`-1.0e7`) is never evaluated: both programs carry the same pattern.
-/
import Idealize.ShloMosaic.PureOps.Ideal

noncomputable section

namespace Cert.Attn.Consts

open Idealize.ShloMosaic

/-- The pattern of `1.0` denotes 1. -/
theorem ofBits_one : Ideal.ofBits .f32 0x3F800000#32 = 1 := by
  simp [Ideal.ofBits, Ideal.ieee, -EReal.coe_mul]; norm_num

/-- The zero pattern denotes 0. -/
theorem ofBits_zero : Ideal.ofBits .f32 0x00000000#32 = 0 := by
  simp [Ideal.ofBits, Ideal.ieee]

/-- The pattern of negative infinity denotes the bottom of the extended reals. -/
theorem ofBits_neg_inf : Ideal.ofBits .f32 0xFF800000#32 = ⊥ := by
  simp [Ideal.ofBits, Ideal.ieee]

/-- The reference's divisor: the single-precision value nearest the square root of 128 is 11863283 / 2^20. -/
theorem ofBits_sqrt_dkey : Ideal.ofBits .f32 0x413504F3#32 = ((11863283 / 1048576 : ℝ) : EReal) := by
  simp [Ideal.ofBits, Ideal.ieee, -EReal.coe_mul]; norm_num

end Cert.Attn.Consts

end
-- ==== Proof.RowSoftmax.lean ====
/-
  Masked scaled-dot-product attention, stated once, row by row, on the extended reals.

  One query row against `n` keys: the raw dot products `S c`, and an integer mask word `msk c` per key, zero meaning
  "attend". The masked score is `S c / sqrt(d)` where the word is zero and a fixed large negative fill elsewhere; the
  row is shifted by its maximum, exponentiated, and normalised by the sum of the exponentials; masked positions
  are then zeroed. The attention output is the weighted sum of the value rows.

  The scale `1 / sqrt(d)` enters as the reciprocal of the divisor the reference divides by, 11863283 / 2^20: the
  kernel multiplies by that reciprocal and the reference divides, one number on the extended reals at every
  argument, infinite ones too.

  Two readings of the mask meet here. One selects on `msk c = 0`. The other computes with the word as a number
  `m`: `s * (1 - m) + m * fill` and `p * (1 - m)`. For `m = 0` these are `s * 1 + 0 * fill = s` and `p * 1 = p`;
  for `m = 1` they are `s * 0 + 1 * fill = fill` and `p * 0 = 0` — on the extended reals `x * 0 = 0` and
  `x * 1 = x` for every `x`, so no finiteness is needed. For any other word the two readings differ.
-/
import Idealize.ShloMosaic.PureOps.Ideal
import Idealize.ShloMosaic.Lib.ValueIdx
import proofs.«158148_j23545010717013_2_alg».proof.Proof.Consts

noncomputable section

namespace Cert.Attn

open Idealize.ShloMosaic Idealize.ShloMosaic.ValueIdx

/-- The scale: the reciprocal of the reference's divisor 11863283 / 2^20. -/
def invScale : EReal := ((1048576 / 11863283 : ℝ) : EReal)

/-- The score written where the mask word is not zero. -/
def fill : EReal := Ideal.ofBits .f32 0xCB189680#32

variable {n : ℕ}

/-- The masked, scaled score of key `c`. -/
def score (S : Fin n → EReal) (msk : Fin n → BitVec 32) (c : Fin n) : EReal :=
  if msk c = 0#32 then S c * invScale else fill

/-- The maximum of a row, from negative infinity. -/
def rowMax (x : Fin n → EReal) : EReal := (Finset.univ : Finset (Fin n)).fold max ⊥ x

/-- A row shifted by its maximum and exponentiated. -/
def expShift (x : Fin n → EReal) (c : Fin n) : EReal := Ideal.exp (x c - rowMax x)

/-- The attention weight of key `c`: the normalised exponential where the mask word is zero, zero elsewhere. -/
def weight (S : Fin n → EReal) (msk : Fin n → BitVec 32) (c : Fin n) : EReal :=
  if msk c = 0#32 then Ideal.div (expShift (score S msk) c) (∑ c' : Fin n, expShift (score S msk) c') else 0

/-! ## The reference's reading of the mask: arithmetic on the word as a number -/

/-- Dividing by the reference's divisor is multiplying by the scale, at every extended real. -/
theorem div_sqrt_dkey (x : EReal) : Ideal.div x (Ideal.ofBits .f32 0x413504F3#32) = x * invScale := by
  rw [Consts.ofBits_sqrt_dkey, Ideal.div_coe (by norm_num : (11863283 / 1048576 : ℝ) ≠ 0)]
  unfold invScale
  norm_num

/-- A mask word that is 0 or 1, read as a signed integer and then as a real, is 0 or 1. -/
theorem toInt_zero : (((0#32 : BitVec 32).toInt : ℝ) : EReal) = 0 := by
  rw [BitVec.toInt_zero]; simp
theorem toInt_one : (((1#32 : BitVec 32).toInt : ℝ) : EReal) = 1 := by
  have : (1#32 : BitVec 32).toInt = 1 := by decide
  rw [this]; simp

/-- `s * (1 - m) + m * fill` is the selected score, for a word that is 0 or 1. -/
theorem masked_score_arith (s f : EReal) (m : BitVec 32) (hm : m = 0#32 ∨ m = 1#32) :
    s * ((1 : EReal) - ((m.toInt : ℝ) : EReal)) + ((m.toInt : ℝ) : EReal) * f = if m = 0#32 then s else f := by
  rcases hm with rfl | rfl
  · rw [toInt_zero, if_pos rfl, sub_zero, mul_one, zero_mul, add_zero]
  · rw [toInt_one, if_neg (by decide)]
    have h0 : (1 : EReal) - 1 = 0 := by
      rw [← EReal.coe_one, ← EReal.coe_sub, sub_self, EReal.coe_zero]
    rw [h0, mul_zero, one_mul, zero_add]

/-- `p * (1 - m)` is the selected weight, for a word that is 0 or 1. -/
theorem masked_weight_arith (p : EReal) (m : BitVec 32) (hm : m = 0#32 ∨ m = 1#32) :
    p * ((1 : EReal) - ((m.toInt : ℝ) : EReal)) = if m = 0#32 then p else 0 := by
  rcases hm with rfl | rfl
  · rw [toInt_zero, if_pos rfl, sub_zero, mul_one]
  · rw [toInt_one, if_neg (by decide)]
    have h0 : (1 : EReal) - 1 = 0 := by
      rw [← EReal.coe_one, ← EReal.coe_sub, sub_self, EReal.coe_zero]
    rw [h0, mul_zero]

/-! ## The kernel's reading of the mask: a select on the comparison with zero -/

/-- Selecting on the word of `m = 0` is the conditional on that equation. -/
theorem select_cmpi_eq_zero {α : Type} (m : BitVec 32) (a b : α) :
    Scalar.select (IntOp.cmpi .eq m 0#32) a b = if m = 0#32 then a else b := by
  unfold Scalar.select IntOp.cmpi
  by_cases h : m = 0#32
  · subst h; rfl
  · rw [if_neg h]
    have hb : (m == 0#32) = false := by simpa using h
    simp only [hb]
    rfl

/-! ## The whole arrays: 16 batches, 2048 queries and keys, 128 features -/

abbrev SQ : Shape := ⟨3, ![16, 2048, 128]⟩
abbrev SM : Shape := ⟨3, ![16, 2048, 2048]⟩

/-- The dot product of query row `r` and key row `c` of batch `b`. -/
def dotQK (q k : SQ.Idx → EReal) (b : Fin 16) (r c : Fin 2048) : EReal :=
  ∑ d : Fin 128, q (ix3 b r d) * k (ix3 b c d)

/-- The attention weight of key `c` for query `r` of batch `b`. -/
def weights (q k : SQ.Idx → EReal) (msk : SM.Idx → BitVec 32) (b : Fin 16) (r c : Fin 2048) : EReal :=
  weight (fun c' => dotQK q k b r c') (fun c' => msk (ix3 b r c')) c

/-- The attention output: the weighted sum of the value rows. -/
def attention (q k v : SQ.Idx → EReal) (msk : SM.Idx → BitVec 32) (b : Fin 16) (r : Fin 2048) (d : Fin 128) : EReal :=
  ∑ c : Fin 2048, weights q k msk b r c * v (ix3 b c d)

/-- The weights as an array over `[16, 2048, 2048]`. -/
def weightsArr (q k : SQ.Idx → EReal) (msk : SM.Idx → BitVec 32) : SM.Idx → EReal :=
  fun i => weights q k msk (i 0) (i 1) (i 2)

/-- The attention output as an array over `[16, 2048, 128]`. -/
def attentionArr (q k v : SQ.Idx → EReal) (msk : SM.Idx → BitVec 32) : SQ.Idx → EReal :=
  fun i => attention q k v msk (i 0) (i 1) (i 2)

end Cert.Attn

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.BodyValue.lean ====
/-
  The kernel body's two stored values, read at an index, are row-wise masked attention of the blocks it loads.

  The body loads a block of 512 query rows, all 2048 key rows and all 2048 value rows of one batch, and the
  512 × 2048 block of mask words. Entry `(p, c)` of its first matrix product is the dot product of query row `p`
  and key row `c` (the product accumulates into zero); the product with the named scale, the select on
  `mask = 0` against the fill, the row maximum from negative infinity kept as a column and broadcast back, the
  exponential of the difference, the row sum from zero kept as a column and broadcast back, the quotient and the
  final select against zero are, entry by entry, the attention weight of key `c` in row `p`. The second matrix
  product sums the weights of row `p` against column `d` of the value rows; the rounding of the weights to a
  narrower format before it is the identity on the extended reals.
-/
import proofs.«158148_j23545010717013_2_alg».proof.Proof.Gen.KernelIdeal.Skeleton
import proofs.«158148_j23545010717013_2_alg».proof.Proof.RowSoftmax
import proofs.«158148_j23545010717013_2_alg».proof.Proof.LibKeepdims
import Idealize.ShloMosaic.PureOps.Ideal.Laws
import Idealize.ShloMosaic.PureOps.IdealRules
import Idealize.ShloMosaic.Lib.ValueIdx
import Idealize.ShloMosaic.Lib.Pipeline.Value

noncomputable section

namespace Cert.Attn.Body

open Cert.KernelIdeal Cert.KernelIdeal.Gen
open Idealize.ShloMosaic Idealize.ShloMosaic.ValueIdx
open Cert.Attn Cert.Lib

/-! ## Layout: a block with a leading unit axis read as a matrix -/

/-- A `1 × a × b` block cast to `a × b` reads, at `(p, q)`, the block at `(0, p, q)`. -/
theorem dropUnit_apply {α : Type} {a b : ℕ} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) :=
  shapeCast_apply x h _ _ (by
    rw [Shape.rowMajor_val_two, Shape.rowMajor_val_three]
    show (0 * a + p.val) * b + q.val = p.val * b + q.val
    rw [Nat.zero_mul, Nat.zero_add])

/-! ## The two matrix products at an entry -/

/-- Queries against keys: the first operand is read at the result's row … -/
theorem qk_lhs_row (i : S512x2048.Idx) (q : dot_S512x128_S2048x128_S512x2048_1_1_0_0_n_n.contr.Idx) : (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide),
    dif_pos (show (0 : Fin S512x128.rank) ∈ dot_S512x128_S2048x128_S512x2048_1_1_0_0_n_n.lhsNonContracting by decide)]
  rfl
/-- … and the second at the result's column, as its row. -/
theorem qk_rhs_row (i : S512x2048.Idx) (q : dot_S512x128_S2048x128_S512x2048_1_1_0_0_n_n.contr.Idx) : (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide),
    dif_pos (show (0 : Fin S2048x128.rank) ∈ dot_S512x128_S2048x128_S512x2048_1_1_0_0_n_n.rhsNonContracting by decide)]
  rfl

/-- Queries against keys, both contracted along their feature axis: entry `(p, c)` is the dot product of row `p`
    of the first operand and row `c` of the second. -/
theorem qk_apply (A : FVec Ideal S512x128 .bf16) (B : FVec Ideal S2048x128 .bf16) (p : Fin 512) (c : Fin 2048) :
    matmul dot_S512x128_S2048x128_S512x2048_1_1_0_0_n_n none A B (constant S512x2048 .f32 0x00000000#32) (ix2 p c)
      = ∑ d : Fin 128, A (ix2 p d) * B (ix2 c d) := by
  simp only [matmul]
  rw [Ideal.matmul_constant_zero_apply, ← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 p c) ((contrEquiv1 dot_S512x128_S2048x128_S512x2048_1_1_0_0_n_n 128 rfl rfl).symm k) = ix2 p k :=
    funext fun a => Fin.ext (by
      match a with
      | ⟨0, _⟩ => exact qk_lhs_row _ _
      | ⟨1, _⟩ => exact (dot_S512x128_S2048x128_S512x2048_1_1_0_0_n_n.lhsIdx_val_of_single rfl _ _).trans hk)
  have er : dot_S512x128_S2048x128_S512x2048_1_1_0_0_n_n.rhsIdx (ix2 p c) ((contrEquiv1 dot_S512x128_S2048x128_S512x2048_1_1_0_0_n_n 128 rfl rfl).symm k) = ix2 c k :=
    funext fun a => Fin.ext (by
      match a with
      | ⟨0, _⟩ => exact qk_rhs_row _ _
      | ⟨1, _⟩ => exact (dot_S512x128_S2048x128_S512x2048_1_1_0_0_n_n.rhsIdx_val_of_single rfl _ _).trans hk)
  rw [el, er]

/-- Weights against values: the first operand is read at the result's row … -/
theorem pv_lhs_row (i : S512x128.Idx) (q : dot_S512x2048_S2048x128_S512x128_1_0_0_1_n_n.contr.Idx) : (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide),
    dif_pos (show (0 : Fin S512x2048.rank) ∈ dot_S512x2048_S2048x128_S512x128_1_0_0_1_n_n.lhsNonContracting by decide)]
  rfl
/-- … and the second at the result's column. -/
theorem pv_rhs_col (i : S512x128.Idx) (q : dot_S512x2048_S2048x128_S512x128_1_0_0_1_n_n.contr.Idx) : (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide),
    dif_pos (show (1 : Fin S2048x128.rank) ∈ dot_S512x2048_S2048x128_S512x128_1_0_0_1_n_n.rhsNonContracting by decide)]
  rfl

/-- Weights against values, the weights' key axis contracted with the values' row axis: entry `(p, d)` sums row
    `p` of the first operand against column `d` of the second. -/
theorem pv_apply (A : FVec Ideal S512x2048 .bf16) (B : FVec Ideal S2048x128 .bf16) (p : Fin 512) (d : Fin 128) :
    matmul dot_S512x2048_S2048x128_S512x128_1_0_0_1_n_n none A B (constant S512x128 .f32 0x00000000#32) (ix2 p d)
      = ∑ c : Fin 2048, A (ix2 p c) * B (ix2 c d) := by
  simp only [matmul]
  rw [Ideal.matmul_constant_zero_apply, ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 p d) ((contrEquiv1 dot_S512x2048_S2048x128_S512x128_1_0_0_1_n_n 2048 rfl rfl).symm k) = ix2 p k :=
    funext fun a => Fin.ext (by
      match a with
      | ⟨0, _⟩ => exact pv_lhs_row _ _
      | ⟨1, _⟩ => exact (dot_S512x2048_S2048x128_S512x128_1_0_0_1_n_n.lhsIdx_val_of_single rfl _ _).trans hk)
  have er : dot_S512x2048_S2048x128_S512x128_1_0_0_1_n_n.rhsIdx (ix2 p d) ((contrEquiv1 dot_S512x2048_S2048x128_S512x128_1_0_0_1_n_n 2048 rfl rfl).symm k) = ix2 k d :=
    funext fun a => Fin.ext (by
      match a with
      | ⟨0, _⟩ => exact (dot_S512x2048_S2048x128_S512x128_1_0_0_1_n_n.rhsIdx_val_of_single rfl _ _).trans hk
      | ⟨1, _⟩ => exact pv_rhs_col _ _)
  rw [el, er]

/-! ## Row statistics kept as a column -/

/-- The index of entry `k` of row `p`: the row's index with the column inserted on the reduced axis. -/
theorem lift_row (h : S512x2048.Reduces [1] S512) (p : Fin 512) (k : Fin 2048) : h.lift (ix1 p) k = ix2 p k :=
  funext fun a => Fin.ext (by match a with | ⟨0, _⟩ => rfl | ⟨1, _⟩ => rfl)

/-- The lane maximum from negative infinity, at row `p`, is the row's maximum. -/
theorem rowMax_apply (x : FVec Ideal S512x2048 .f32) (h : S512x2048.Reduces [1] S512) (hφ : FKind.Formats .f32)
    (hacc : (0xFF800000#32 : BitVec 32) = FKind.maximumf.neutral .f32 hφ) (p : Fin 512) :
    multiReduction .maximumf [1] S512 x 0xFF800000#32 h hφ hacc (ix1 p) = rowMax (fun c' : Fin 2048 => x (ix2 p c')) := by
  refine (Ideal.multiReduction_maximumf_single x _ h hφ hacc (ix1 p)).trans ?_
  unfold rowMax
  simp only [Ideal.ofBits_def, Consts.ofBits_neg_inf]
  refine Finset.fold_congr ?_
  intro k _
  show x (h.lift (ix1 p) k) = _
  rw [lift_row h p k]

/-- The lane sum from zero, at row `p`, is the row's sum. -/
theorem rowSum_apply (y : FVec Ideal S512x2048 .f32) (h : S512x2048.Reduces [1] S512) (hφ : FKind.Formats .f32)
    (hacc : (0x00000000#32 : BitVec 32) = FKind.add.neutral .f32 hφ) (p : Fin 512) :
    multiReduction .add [1] S512 y 0x00000000#32 h hφ hacc (ix1 p) = ∑ c' : Fin 2048, y (ix2 p c') := by
  refine (Ideal.multiReduction_add_single y _ h hφ hacc (ix1 p)).trans ?_
  refine Finset.sum_congr rfl fun k _ => ?_
  rw [lift_row h p k]

/-- A row statistic kept as a column and broadcast back along the row reads, at `(p, c)`, the statistic of row `p`. -/
theorem keepdims_apply (s : FVec Ideal S512 .f32) (p : Fin 512) (c : Fin 2048) :
    broadcastTo S512x2048 (shapeCast S512x1 s shapeCasts_S512_S512x1) broadcasts_S512x1_S512x2048 (ix2 p c) = s (ix1 p) :=
  (Keepdims.bcastCol_apply _ broadcasts_S512x1_S512x2048 p c).trans (Keepdims.col_apply s shapeCasts_S512_S512x1 p 0)

/-! ## The body's stages as vectors, and each read at an entry -/

/-- The named scale denotes the reciprocal of the reference's divisor. -/
theorem named_scale :
    Named.named (F := Ideal) Cert.KernelIdeal.κ "inv_sqrt_dkey" (φ := .f32) 0x3DB504F3#32 = invScale :=
  IdealRules.named_const.ideal_named_scalar _ _ _ _ rfl

/-- The masked, scaled scores of a block: queries `A`, keys `B`, mask words `M`. -/
def scoresVec (A : FVec Ideal S512x128 .bf16) (B : FVec Ideal S2048x128 .bf16) (M : IVec S512x2048 32) :
    FVec Ideal S512x2048 .f32 :=
  select (cmpi .eq M (broadcast S512x2048 0#32))
    (mulf (matmul dot_S512x128_S2048x128_S512x2048_1_1_0_0_n_n none A B (constant S512x2048 .f32 0x00000000#32))
      (broadcast S512x2048 (Named.named Cert.KernelIdeal.κ "inv_sqrt_dkey" 0x3DB504F3#32)))
    (broadcast S512x2048 (Scalar.ofBits .f32 0xCB189680#32))

/-- Each row shifted by its maximum and exponentiated. -/
def expVec (x : FVec Ideal S512x2048 .f32) : FVec Ideal S512x2048 .f32 :=
  exp (subf x (broadcastTo S512x2048 (shapeCast S512x1
    (multiReduction .maximumf [1] S512 x 0xFF800000#32 reduces_S512x2048_S512 (.inl rfl) rfl)
    shapeCasts_S512_S512x1) broadcasts_S512x1_S512x2048))

/-- Each row divided by its sum, then zeroed where the mask word is not zero. -/
def probsVec (M : IVec S512x2048 32) (e : FVec Ideal S512x2048 .f32) : FVec Ideal S512x2048 .f32 :=
  select (cmpi .eq M (broadcast S512x2048 0#32))
    (divf e (broadcastTo S512x2048 (shapeCast S512x1
      (multiReduction .add [1] S512 e 0x00000000#32 reduces_S512x2048_S512 (.inl rfl) rfl)
      shapeCasts_S512_S512x1) broadcasts_S512x1_S512x2048))
    (broadcast S512x2048 (Scalar.ofBits .f32 0x00000000#32))

theorem scoresVec_apply (A : FVec Ideal S512x128 .bf16) (B : FVec Ideal S2048x128 .bf16) (M : IVec S512x2048 32)
    (p : Fin 512) (c : Fin 2048) :
    scoresVec A B M (ix2 p c)
      = score (fun c' => ∑ d : Fin 128, A (ix2 p d) * B (ix2 c' d)) (fun c' => M (ix2 p c')) c := by
  show Scalar.select (IntOp.cmpi .eq (M (ix2 p c)) 0#32)
      (matmul dot_S512x128_S2048x128_S512x2048_1_1_0_0_n_n none A B (constant S512x2048 .f32 0x00000000#32) (ix2 p c)
        * Named.named (F := Ideal) Cert.KernelIdeal.κ "inv_sqrt_dkey" (φ := .f32) 0x3DB504F3#32)
      (Ideal.ofBits .f32 0xCB189680#32) = _
  rw [select_cmpi_eq_zero, qk_apply, named_scale]
  rfl

theorem expVec_apply (x : FVec Ideal S512x2048 .f32) (p : Fin 512) (c : Fin 2048) :
    expVec x (ix2 p c) = expShift (fun c' : Fin 2048 => x (ix2 p c')) c := by
  show Ideal.exp (x (ix2 p c) - broadcastTo S512x2048 (shapeCast S512x1
    (multiReduction .maximumf [1] S512 x 0xFF800000#32 reduces_S512x2048_S512 (.inl rfl) rfl)
    shapeCasts_S512_S512x1) broadcasts_S512x1_S512x2048 (ix2 p c)) = _
  rw [keepdims_apply]
  exact congrArg (fun mx => Ideal.exp (x (ix2 p c) - mx)) (rowMax_apply x reduces_S512x2048_S512 (.inl rfl) rfl p)

theorem probsVec_apply (M : IVec S512x2048 32) (e : FVec Ideal S512x2048 .f32) (p : Fin 512) (c : Fin 2048) :
    probsVec M e (ix2 p c)
      = if M (ix2 p c) = 0#32 then Ideal.div (e (ix2 p c)) (∑ c' : Fin 2048, e (ix2 p c')) else 0 := by
  show Scalar.select (IntOp.cmpi .eq (M (ix2 p c)) 0#32)
      (Ideal.div (e (ix2 p c)) (broadcastTo S512x2048 (shapeCast S512x1
        (multiReduction .add [1] S512 e 0x00000000#32 reduces_S512x2048_S512 (.inl rfl) rfl)
        shapeCasts_S512_S512x1) broadcasts_S512x1_S512x2048 (ix2 p c)))
      (Ideal.ofBits .f32 0x00000000#32) = _
  rw [select_cmpi_eq_zero, keepdims_apply, Consts.ofBits_zero]
  exact congrArg (fun z => if M (ix2 p c) = 0#32 then Ideal.div (e (ix2 p c)) z else 0)
    (rowSum_apply e reduces_S512x2048_S512 (.inl rfl) rfl p)

/-- The three stages composed: entry `(p, c)` is the attention weight of key `c` in row `p`. -/
theorem weightsVec_apply (A : FVec Ideal S512x128 .bf16) (B : FVec Ideal S2048x128 .bf16) (M : IVec S512x2048 32)
    (p : Fin 512) (c : Fin 2048) :
    probsVec M (expVec (scoresVec A B M)) (ix2 p c)
      = weight (fun c' => ∑ d : Fin 128, A (ix2 p d) * B (ix2 c' d)) (fun c' => M (ix2 p c')) c := by
  have hs : (fun c' : Fin 2048 => scoresVec A B M (ix2 p c'))
      = score (fun c' => ∑ d : Fin 128, A (ix2 p d) * B (ix2 c' d)) (fun c' => M (ix2 p c')) :=
    funext fun c' => scoresVec_apply A B M p c'
  rw [probsVec_apply]
  simp only [expVec_apply]
  rw [hs]
  rfl

/-! ## The payloads -/

variable (P0 : Vec Ideal S1x512x128 .bf16) (P1 P2 : Vec Ideal S1x2048x128 .bf16) (P3 : Vec Ideal S1x512x2048 .i32)

/-- The weights payload is the three stages of the loaded blocks read as matrices. -/
theorem pay2_eq : k0_pay2 (F := Ideal) P0 P1 P3
    = probsVec (shapeCast S512x2048 P3 shapeCasts_S1x512x2048_S512x2048)
        (expVec (scoresVec (shapeCast S512x128 P0 shapeCasts_S1x512x128_S512x128)
          (shapeCast S2048x128 P1 shapeCasts_S1x2048x128_S2048x128)
          (shapeCast S512x2048 P3 shapeCasts_S1x512x2048_S512x2048))) := rfl

/-- The weights payload at `(p, c)`: the attention weight of key `c` in row `p` of the loaded blocks. -/
theorem pay2_apply (p : Fin 512) (c : Fin 2048) :
    k0_pay2 (F := Ideal) P0 P1 P3 (ix2 p c)
      = weight (fun c' => ∑ d : Fin 128, P0 (ix3 (0 : Fin 1) p d) * P1 (ix3 (0 : Fin 1) c' d))
          (fun c' => P3 (ix3 (0 : Fin 1) p c')) c := by
  rw [pay2_eq, weightsVec_apply]
  simp only [dropUnit_apply]

/-- The output payload at `(p, d)`: the weights of row `p` against column `d` of the loaded value rows. -/
theorem pay4_apply (p : Fin 512) (d : Fin 128) :
    k0_pay4 (F := Ideal) P0 P1 P2 P3 (ix2 p d)
      = ∑ c : Fin 2048, k0_pay2 (F := Ideal) P0 P1 P3 (ix2 p c) * P2 (ix3 (0 : Fin 1) c d) := by
  show matmul dot_S512x2048_S2048x128_S512x128_1_0_0_1_n_n none (truncf .bf16 (k0_pay2 (F := Ideal) P0 P1 P3) bitsLt_bf16_f32)
      (shapeCast S2048x128 P2 shapeCasts_S1x2048x128_S2048x128) (constant S512x128 .f32 0x00000000#32) (ix2 p d) = _
  rw [pv_apply]
  refine Finset.sum_congr rfl fun k _ => ?_
  rw [dropUnit_apply]
  rfl

end Cert.Attn.Body

end
-- ==== Proof.Blocks.lean ====
/-
  From the blocks the grid points write back to the two whole result arrays.

  The grid has 16 × 4 points; point `(b, j)` stages rows `512 j … 512 j + 511` of batch `b` of the queries and of the
  mask, all 2048 key rows and value rows of batch `b`, and writes back the same row range of batch `b` of the
  weights and of the output. The arrays the region finds for queries, keys and values are the arguments rounded to
  a narrower format — on the extended reals, the arguments themselves. So what point `(b, j)` writes back is
  rows `512 j …` of batch `b` of the attention weights (and outputs) of the whole arguments: a row of attention
  depends on its own query row, on all keys and values of its batch, and on its own mask row, which is what the
  point has staged. The write-back blocks tile the arrays (row `r` of batch `b` is in the block of point
  `(b, r / 512)`), so each result array ends as the whole-array attention function of the arguments.
-/
import proofs.«158148_j23545010717013_2_alg».proof.Proof.Gen.KernelIdeal.Value
import proofs.«158148_j23545010717013_2_alg».proof.Proof.BodyValue
import proofs.«158148_j23545010717013_2_alg».proof.Proof.RowSoftmax
import Idealize.ShloMosaic.Lib.Pipeline.Value
import Idealize.ShloMosaic.Lib.StableHlo.Run
import Idealize.ShloMosaic.Lib.ValueIdx

noncomputable section

namespace Cert.Attn.Blocks

open Cert.KernelIdeal Cert.KernelIdeal.Gen
open Idealize.ShloMosaic Idealize.ShloMosaic.TcCoe Idealize.SL.Sem Idealize.ShloMosaic.ValueIdx
open Idealize.ShloMosaic.Pipeline (Dat)
open Cert.Attn

variable (m : (ℓ : Loc nD τ sig) → Buf (Elt Ideal) ℓ) (ρ : Dev nD → PrngReg)

/-! ## The arrays the region finds -/

/-- The queries as the region finds them: the argument (the rounding before the region is the identity here). -/
theorem V_queries (c : Dev nD) :
    (V m c main_v0 : S16x2048x128.Idx → EReal) = m ((c : Thread nD τ).loc main_arg0) := by
  dsimp only [Gen.V, Gen.hostOps0]; after_results; rfl

/-- The keys as the region finds them. -/
theorem V_keys (c : Dev nD) :
    (V m c main_v1 : S16x2048x128.Idx → EReal) = m ((c : Thread nD τ).loc main_arg1) := by
  dsimp only [Gen.V, Gen.hostOps0]; after_results; rfl

/-- The values as the region finds them. -/
theorem V_values (c : Dev nD) :
    (V m c main_v2 : S16x2048x128.Idx → EReal) = m ((c : Thread nD τ).loc main_arg2) := by
  dsimp only [Gen.V, Gen.hostOps0]; after_results; rfl

/-! ## Where each window's block sits -/

/-- The printed index maps, decided over the 64 grid points: the query, mask, output and weight windows move
    together over (batch, row block); the key and value windows follow the batch alone. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3)
    ∧ win0_3.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_5.index t (2 : Fin 3) = 0 ∧ win0_5.index t (0 : Fin 3) ≤ 15 ∧ win0_5.index t (1 : Fin 3) ≤ 3 :=
  (by decide +kernel : ∀ t : Fin grid0.N, _)

/-- Every (batch, row block) is some point's. -/
theorem idx_onto : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-! ## What the body leaves in each output's staging buffer, as attention of the staged blocks -/

theorem hz : (![0, 0, 0] : Fin 3 → Nat) = fun _ => 0 := funext fun a => by fin_cases a <;> rfl

/-- The weights buffer after the body, at row `p` and key `k` of the staged blocks. -/
theorem out5_apply (x0 : Vec Ideal S1x512x128 .bf16) (x1 x2 : Vec Ideal S1x2048x128 .bf16)
    (x3 : Vec Ideal S1x512x2048 .i32) (p : Fin 512) (k : Fin 2048) :
    out0_5 x0 x1 x2 x3 (ix3 (0 : Fin 1) p k)
      = weight (fun c' => ∑ d : Fin 128, x0 (ix3 (0 : Fin 1) p d) * x1 (ix3 (0 : Fin 1) c' d))
          (fun c' => x3 (ix3 (0 : Fin 1) p c')) k := by
  unfold out0_5
  rw [Cert.KernelIdeal.Value.canon5_eq]
  show k0_pay2 (View.ld x0 r0_0) (View.ld x1 r0_1) (View.ld x3 r0_2)
    (Cert.KernelIdeal.Value.ix5_0 (ix3 (0 : Fin 1) p k)) = _
  rw [View.ld_unit_zero (S := S1x512x128) hz, View.ld_unit_zero (S := S1x2048x128) hz,
    View.ld_unit_zero (S := S1x512x2048) hz]
  have e : Cert.KernelIdeal.Value.ix5_0 (ix3 (0 : Fin 1) p k) = ix2 p k :=
    funext fun a => by match a with | ⟨0, _⟩ => rfl | ⟨1, _⟩ => rfl
  rw [e]
  exact Body.pay2_apply x0 x1 x3 p k

/-- The output buffer after the body, at row `p` and feature `d` of the staged blocks. -/
theorem out4_apply (x0 : Vec Ideal S1x512x128 .bf16) (x1 x2 : Vec Ideal S1x2048x128 .bf16)
    (x3 : Vec Ideal S1x512x2048 .i32) (p : Fin 512) (d : Fin 128) :
    out0_4 x0 x1 x2 x3 (ix3 (0 : Fin 1) p d)
      = ∑ c : Fin 2048, weight (fun c' => ∑ d' : Fin 128, x0 (ix3 (0 : Fin 1) p d') * x1 (ix3 (0 : Fin 1) c' d'))
          (fun c' => x3 (ix3 (0 : Fin 1) p c')) c * x2 (ix3 (0 : Fin 1) c d) := by
  unfold out0_4
  rw [Cert.KernelIdeal.Value.canon4_eq]
  show k0_pay4 (View.ld x0 r0_0) (View.ld x1 r0_1) (View.ld x2 r0_1) (View.ld x3 r0_2)
    (Cert.KernelIdeal.Value.ix4_0 (ix3 (0 : Fin 1) p d)) = _
  rw [View.ld_unit_zero (S := S1x512x128) hz, View.ld_unit_zero (S := S1x2048x128) hz,
    View.ld_unit_zero (S := S1x2048x128) hz, View.ld_unit_zero (S := S1x512x2048) hz]
  have e : Cert.KernelIdeal.Value.ix4_0 (ix3 (0 : Fin 1) p d) = ix2 p d :=
    funext fun a => by match a with | ⟨0, _⟩ => rfl | ⟨1, _⟩ => rfl
  rw [e, Body.pay4_apply]
  refine Finset.sum_congr rfl fun c _ => ?_
  rw [Body.pay2_apply]

/-- Staged blocks that are row `r` of batch `b` of the queries and of the mask, and all of batch `b` of the keys,
    give row `r` of batch `b` of the weights. -/
theorem weights_of_blocks (Q K : SQ.Idx → EReal) (Msk : SM.Idx → BitVec 32)
    (x0 : Vec Ideal S1x512x128 .bf16) (x1 x2 : Vec Ideal S1x2048x128 .bf16) (x3 : Vec Ideal S1x512x2048 .i32)
    (b : Fin 16) (r : Fin 2048) (p : Fin 512)
    (h0 : ∀ d : Fin 128, x0 (ix3 (0 : Fin 1) p d) = Q (ix3 b r d))
    (h1 : ∀ (c : Fin 2048) (d : Fin 128), x1 (ix3 (0 : Fin 1) c d) = K (ix3 b c d))
    (h3 : ∀ c : Fin 2048, x3 (ix3 (0 : Fin 1) p c) = Msk (ix3 b r c)) (k : Fin 2048) :
    out0_5 x0 x1 x2 x3 (ix3 (0 : Fin 1) p k) = weights Q K Msk b r k := by
  rw [out5_apply]
  unfold weights dotQK
  simp only [h0, h1, h3]

/-- … and, with all of batch `b` of the values, row `r` of batch `b` of the attention output. -/
theorem attention_of_blocks (Q K Vv : SQ.Idx → EReal) (Msk : SM.Idx → BitVec 32)
    (x0 : Vec Ideal S1x512x128 .bf16) (x1 x2 : Vec Ideal S1x2048x128 .bf16) (x3 : Vec Ideal S1x512x2048 .i32)
    (b : Fin 16) (r : Fin 2048) (p : Fin 512)
    (h0 : ∀ d : Fin 128, x0 (ix3 (0 : Fin 1) p d) = Q (ix3 b r d))
    (h1 : ∀ (c : Fin 2048) (d : Fin 128), x1 (ix3 (0 : Fin 1) c d) = K (ix3 b c d))
    (h2 : ∀ (c : Fin 2048) (d : Fin 128), x2 (ix3 (0 : Fin 1) c d) = Vv (ix3 b c d))
    (h3 : ∀ c : Fin 2048, x3 (ix3 (0 : Fin 1) p c) = Msk (ix3 b r c)) (d : Fin 128) :
    out0_4 x0 x1 x2 x3 (ix3 (0 : Fin 1) p d) = attention Q K Vv Msk b r d := by
  rw [out4_apply]
  unfold attention weights dotQK
  simp only [h0, h1, h2, h3]

/-! ## The staged blocks as rows of the arguments -/

/-- An element of a point's query block is an element of the query argument: batch and row block from the point's
    index, the feature axis whole. -/
theorem iblk_queries (c : Dev nD) (t : Fin cfg0.N) (b : Fin 16) (r : Fin 2048) (p : Fin 512) (d : Fin 128)
    (hb : win0_0.index t (0 : Fin 3) = b.val) (hr : win0_0.index t (1 : Fin 3) * 512 + p.val = r.val)
    (h2 : win0_0.index t (2 : Fin 3) = 0) :
    iblk m c 0 t (ix3 (0 : Fin 1) p d)
      = (m ((c : Thread nD τ).loc main_arg0) : S16x2048x128.Idx → EReal) (ix3 b r d) := by
  show (V m c main_v0 : S16x2048x128.Idx → EReal) (((cfg0.win 0).blk t).view.emb (ix3 (0 : Fin 1) p d)) = _
  rw [V_queries]
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * p.val = r.val; omega
  | ⟨2, _⟩ => show win0_0.index t (2 : Fin 3) * 128 + 1 * d.val = d.val; omega

/-- An element of a point's key block: the whole batch of keys. -/
theorem iblk_keys (c : Dev nD) (t : Fin cfg0.N) (b : Fin 16) (k : Fin 2048) (d : Fin 128)
    (hb : win0_1.index t (0 : Fin 3) = b.val) (h1 : win0_1.index t (1 : Fin 3) = 0)
    (h2 : win0_1.index t (2 : Fin 3) = 0) :
    iblk m c 1 t (ix3 (0 : Fin 1) k d)
      = (m ((c : Thread nD τ).loc main_arg1) : S16x2048x128.Idx → EReal) (ix3 b k d) := by
  show (V m c main_v1 : S16x2048x128.Idx → EReal) (((cfg0.win 1).blk t).view.emb (ix3 (0 : Fin 1) k d)) = _
  rw [V_keys]
  refine congrArg _ (funext fun a => Fin.ext ?_)
  match a with
  | ⟨0, _⟩ => show win0_1.index t (0 : Fin 3) * 1 + 1 * 0 = b.val; omega
  | ⟨1, _⟩ => show win0_1.index t (1 : Fin 3) * 2048 + 1 * k.val = k.val; omega
  | ⟨2, _⟩ => show win0_1.index t (2 : Fin 3) * 128 + 1 * d.val = d.val; omega

/-- An element of a point's value block: the whole batch of values. -/
theorem iblk_values (c : Dev nD) (t : Fin cfg0.N) (b : Fin 16) (k : Fin 2048) (d : Fin 128)
    (hb : win0_2.index t (0 : Fin 3) = b.val) (h1 : win0_2.index t (1 : Fin 3) = 0)
    (h2 : win0_2.index t (2 : Fin 3) = 0) :
    iblk m c 2 t (ix3 (0 : Fin 1) k d)
      = (m ((c : Thread nD τ).loc main_arg2) : S16x2048x128.Idx → EReal) (ix3 b k d) := by
  show (V m c main_v2 : S16x2048x128.Idx → EReal) (((cfg0.win 2).blk t).view.emb (ix3 (0 : Fin 1) k d)) = _
  rw [V_values]
  refine congrArg _ (funext fun a => Fin.ext ?_)
  match a with
  | ⟨0, _⟩ => show win0_2.index t (0 : Fin 3) * 1 + 1 * 0 = b.val; omega
  | ⟨1, _⟩ => show win0_2.index t (1 : Fin 3) * 2048 + 1 * k.val = k.val; omega
  | ⟨2, _⟩ => show win0_2.index t (2 : Fin 3) * 128 + 1 * d.val = d.val; omega

/-- An element of a point's mask block: the same batch and row block as the queries, the key axis whole. -/
theorem iblk_mask (c : Dev nD) (t : Fin cfg0.N) (b : Fin 16) (r : Fin 2048) (p : Fin 512) (k : Fin 2048)
    (hb : win0_3.index t (0 : Fin 3) = b.val) (hr : win0_3.index t (1 : Fin 3) * 512 + p.val = r.val)
    (h2 : win0_3.index t (2 : Fin 3) = 0) :
    iblk m c 3 t (ix3 (0 : Fin 1) p k)
      = (m ((c : Thread nD τ).loc main_arg3) : S16x2048x2048.Idx → BitVec 32) (ix3 b r k) := by
  show (V m c main_arg3 : S16x2048x2048.Idx → BitVec 32) (((cfg0.win 3).blk t).view.emb (ix3 (0 : Fin 1) p k)) = _
  rw [V_main_arg3]
  refine congrArg _ (funext fun a => Fin.ext ?_)
  match a with
  | ⟨0, _⟩ => show win0_3.index t (0 : Fin 3) * 1 + 1 * 0 = b.val; omega
  | ⟨1, _⟩ => show win0_3.index t (1 : Fin 3) * 512 + 1 * p.val = r.val; omega
  | ⟨2, _⟩ => show win0_3.index t (2 : Fin 3) * 2048 + 1 * k.val = k.val; omega

/-! ## What each point writes back -/

/-- The weights array of the arguments on device `c`. -/
abbrev weightsOf (c : Dev nD) : S16x2048x2048.Idx → EReal :=
  weightsArr (m ((c : Thread nD τ).loc main_arg0)) (m ((c : Thread nD τ).loc main_arg1)) (m ((c : Thread nD τ).loc main_arg3))

/-- The attention output array of the arguments on device `c`. -/
abbrev attentionOf (c : Dev nD) : S16x2048x128.Idx → EReal :=
  attentionArr (m ((c : Thread nD τ).loc main_arg0)) (m ((c : Thread nD τ).loc main_arg1)) (m ((c : Thread nD τ).loc main_arg2)) (m ((c : Thread nD τ).loc main_arg3))

/-- Point `t` writes back its block of the weights of the whole arguments. -/
theorem flushed5_eq (c : Dev nD) (t : Fin cfg0.N) :
    (dats m 0 c).flushed 5 t = ((cfg0.win 5).blk t).view.read (Elt Ideal) (weightsOf m c) := by
  rw [Cert.KernelIdeal.Value.flushed5]
  obtain ⟨e00, e01, e02, e10, e11, e12, e20, e21, e22, e30, e31, e32, e40, e41, e42, e52, hb, hq⟩ := idx_facts t
  funext y
  obtain ⟨p, k, rfl⟩ : ∃ (p : Fin 512) (k : Fin 2048), y = ix3 (0 : Fin 1) p k :=
    ⟨y 1, y 2, (eq_ix3 y).trans (congrArg (fun u : Fin 1 => ix3 u (y 1) (y 2))
      (Fin.ext (by have h : (y 0).val < 1 := (y 0).isLt; show (y 0).val = 0; omega)))⟩
  have hr : win0_5.index t (1 : Fin 3) * 512 + p.val < 2048 := by have := p.isLt; omega
  have hemb : ((cfg0.win 5).blk t).view.emb (ix3 (0 : Fin 1) p k)
      = ix3 (⟨win0_5.index t (0 : Fin 3), by omega⟩ : Fin 16) (⟨win0_5.index t (1 : Fin 3) * 512 + p.val, hr⟩ : Fin 2048) k :=
    funext fun a => Fin.ext (by
      match a with
      | ⟨0, _⟩ => show win0_5.index t (0 : Fin 3) * 1 + 1 * 0 = win0_5.index t (0 : Fin 3); omega
      | ⟨1, _⟩ => show win0_5.index t (1 : Fin 3) * 512 + 1 * p.val = win0_5.index t (1 : Fin 3) * 512 + p.val; omega
      | ⟨2, _⟩ => show win0_5.index t (2 : Fin 3) * 2048 + 1 * k.val = k.val; omega)
  show out0_5 (iblk m c 0 t) (iblk m c 1 t) (iblk m c 2 t) (iblk m c 3 t) (ix3 (0 : Fin 1) p k)
    = weightsOf m c (((cfg0.win 5).blk t).view.emb (ix3 (0 : Fin 1) p k))
  rw [hemb]
  exact weights_of_blocks _ _ _ _ _ _ _ _ _ p
    (fun d => iblk_queries m c t _ _ p d (by show _ = win0_5.index t (0 : Fin 3); omega)
      (by show _ = win0_5.index t (1 : Fin 3) * 512 + p.val; omega) e02)
    (fun k' d => iblk_keys m c t _ k' d (by show _ = win0_5.index t (0 : Fin 3); omega) e11 e12)
    (fun k' => iblk_mask m c t _ _ p k' (by show _ = win0_5.index t (0 : Fin 3); omega)
      (by show _ = win0_5.index t (1 : Fin 3) * 512 + p.val; omega) e32) k

/-- Point `t` writes back its block of the attention output of the whole arguments. -/
theorem flushed4_eq (c : Dev nD) (t : Fin cfg0.N) :
    (dats m 0 c).flushed 4 t = ((cfg0.win 4).blk t).view.read (Elt Ideal) (attentionOf m c) := by
  rw [Cert.KernelIdeal.Value.flushed4]
  obtain ⟨e00, e01, e02, e10, e11, e12, e20, e21, e22, e30, e31, e32, e40, e41, e42, e52, hb, hq⟩ := idx_facts t
  funext y
  obtain ⟨p, d, rfl⟩ : ∃ (p : Fin 512) (d : Fin 128), y = ix3 (0 : Fin 1) p d :=
    ⟨y 1, y 2, (eq_ix3 y).trans (congrArg (fun u : Fin 1 => ix3 u (y 1) (y 2))
      (Fin.ext (by have h : (y 0).val < 1 := (y 0).isLt; show (y 0).val = 0; omega)))⟩
  have hr : win0_5.index t (1 : Fin 3) * 512 + p.val < 2048 := by have := p.isLt; omega
  have hemb : ((cfg0.win 4).blk t).view.emb (ix3 (0 : Fin 1) p d)
      = ix3 (⟨win0_5.index t (0 : Fin 3), by omega⟩ : Fin 16) (⟨win0_5.index t (1 : Fin 3) * 512 + p.val, hr⟩ : Fin 2048) d :=
    funext fun a => Fin.ext (by
      match a with
      | ⟨0, _⟩ => show win0_4.index t (0 : Fin 3) * 1 + 1 * 0 = win0_5.index t (0 : Fin 3); omega
      | ⟨1, _⟩ => show win0_4.index t (1 : Fin 3) * 512 + 1 * p.val = win0_5.index t (1 : Fin 3) * 512 + p.val; omega
      | ⟨2, _⟩ => show win0_4.index t (2 : Fin 3) * 128 + 1 * d.val = d.val; omega)
  show out0_4 (iblk m c 0 t) (iblk m c 1 t) (iblk m c 2 t) (iblk m c 3 t) (ix3 (0 : Fin 1) p d)
    = attentionOf m c (((cfg0.win 4).blk t).view.emb (ix3 (0 : Fin 1) p d))
  rw [hemb]
  exact attention_of_blocks _ _ _ _ _ _ _ _ _ _ p
    (fun d' => iblk_queries m c t _ _ p d' (by show _ = win0_5.index t (0 : Fin 3); omega)
      (by show _ = win0_5.index t (1 : Fin 3) * 512 + p.val; omega) e02)
    (fun k' d' => iblk_keys m c t _ k' d' (by show _ = win0_5.index t (0 : Fin 3); omega) e11 e12)
    (fun k' d' => iblk_values m c t _ k' d' (by show _ = win0_5.index t (0 : Fin 3); omega) e21 e22)
    (fun k' => iblk_mask m c t _ _ p k' (by show _ = win0_5.index t (0 : Fin 3); omega)
      (by show _ = win0_5.index t (1 : Fin 3) * 512 + p.val; omega) e32) d

/-! ## The write-back blocks tile the arrays -/

/-- An index of the weights array is in point `t`'s block iff each coordinate is in the block's range. -/
theorem mem_blk5 (t : Fin cfg0.N) (i : S16x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v3_1).slice (win0_5.rect t)).set ↔ _
  rw [View.set_slice_whole, Rect.mem_set_unit]
  exact Iff.rfl

/-- Likewise for the output array. -/
theorem mem_blk4 (t : Fin cfg0.N) (i : S16x2048x128.Idx) :
    i ∈ ((cfg0.win 4).blk t).view.set ↔ ∀ a : Fin 3, win0_4.index t a * S1x512x128.size a ≤ (i a).val
      ∧ (i a).val < win0_4.index t a * S1x512x128.size a + S1x512x128.size a := by
  show i ∈ ((View.whole main_v3_0).slice (win0_4.rect t)).set ↔ _
  rw [View.set_slice_whole, Rect.mem_set_unit]
  exact Iff.rfl

/-- Row `r` of batch `b` of the weights is in the block of the point with index `(b, r / 512)`. -/
theorem cover5 (i : S16x2048x2048.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- Likewise for the output array. -/
theorem cover4 (i : S16x2048x128.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  obtain ⟨e00, e01, e02, e10, e11, e12, e20, e21, e22, e30, e31, e32, e40, e41, e42, e52, hb, hq⟩ := idx_facts t
  have q0 : win0_5.index t (0 : Fin 3) = (i 0).val := congrFun ht 0
  have q1 : win0_5.index t (1 : Fin 3) = (i 1).val / 512 := congrFun ht 1
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 128 ≤ (i 2).val ∧ (i 2).val < win0_4.index t (2 : Fin 3) * 128 + 128; omega

/-! ## The arrays after the run -/

/-- The weights array ends holding the attention weights of the arguments. -/
theorem final5 (c : Dev nD) : (dats m 0 c).arrAt 5 cfg0.N = weightsOf m c :=
  (dats m 0 c).arrAt_eq_of_cover 5 (weightsOf m c) (fun t _ => flushed5_eq m c t) cover5

/-- The output array ends holding the attention outputs of the arguments. -/
theorem final4 (c : Dev nD) : (dats m 0 c).arrAt 4 cfg0.N = attentionOf m c :=
  (dats m 0 c).arrAt_eq_of_cover 4 (attentionOf m c) (fun t _ => flushed4_eq m c t) cover4

/-- The kernel's run: every weakly fair execution terminates with the two results at the attention outputs and
    weights of the arguments, the arguments unchanged. -/
theorem run : θ_run defs (onTc (τ := τ) (main (F := Ideal))) ⟨m, fun _ => 0, ρ⟩ fun r => ∀ c : Dev nD,
      r.2.mem ((c : Thread nD τ).loc main_v3_0) = attentionOf m c
      ∧ r.2.mem ((c : Thread nD τ).loc main_v3_1) = weightsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.Attn.Blocks

end
-- ==== Proof.RefValue.lean ====
/-
  The reference program, read stage by stage at an index, is row-wise masked attention.

  At batch `b`, query `r`, key `c`: the first contraction is the dot product of the query and key rows; the division
  by the rounded square root of 128 is the product with the scale; the arithmetic with the mask word as a number,
  `s * (1 - m) + m * fill`, is the selected score when the word is 0 or 1; the row maximum is the fold of `max` from
  negative infinity over the keys (taking the maximum with negative infinity once more changes nothing); the shifted
  exponentials, their sum from zero, the quotient, and the final `p * (1 - m)` are the attention weight. The second
  contraction sums the weights against the value rows.
-/
import proofs.«158148_j23545010717013_2_alg».proof.Proof.Gen.ReferenceIdeal.Read
import proofs.«158148_j23545010717013_2_alg».proof.Proof.RowSoftmax
import Idealize.ShloMosaic.PureOps.Ideal.Laws
import Idealize.ShloMosaic.Lib.ValueIdx

noncomputable section

namespace Cert.Attn.Ref

open Cert.ReferenceIdeal Cert.ReferenceIdeal.Gen Cert.ReferenceIdeal.Read
open Idealize.ShloMosaic Idealize.ShloMosaic.ValueIdx
open Cert.Attn

/-- The index of key `k` in row `(b, r)`: the row's index with the key coordinate inserted on the reduced axis. -/
theorem lift_row (h : S16x2048x2048.Reduces [2] S16x2048) (b : Fin 16) (r : Fin 2048) (k : Fin 2048) :
    h.lift (ix2 b r) k = ix3 b r k :=
  funext fun a => Fin.ext (by match a with | ⟨0, _⟩ => rfl | ⟨1, _⟩ => rfl | ⟨2, _⟩ => rfl)

variable (x0 x1 x2 : (⟨S16x2048x128, .f32⟩ : BufTy).Contents (Elt Ideal))
variable (x3 : (⟨S16x2048x2048, .i32⟩ : BufTy).Contents (Elt Ideal))

/-- The first contraction at `(b, r, c)`: the dot product of query row `r` and key row `c`. -/
theorem dot_at (b : Fin 16) (r c : Fin 2048) :
    val_main_v1 (F := Ideal) x0 x1 (ix3 b r c) = dotQK x0 x1 b r c := by
  rw [val_main_v1_apply]
  unfold dotQK
  refine Finset.sum_congr rfl fun k _ => ?_
  have el : lidx_main_v1 (ix3 b r c) k = ix3 b r k :=
    funext fun a => by match a with | ⟨0, _⟩ => rfl | ⟨1, _⟩ => rfl | ⟨2, _⟩ => rfl
  have er : ridx_main_v1 (ix3 b r c) k = ix3 b c k :=
    funext fun a => by match a with | ⟨0, _⟩ => rfl | ⟨1, _⟩ => rfl | ⟨2, _⟩ => rfl
  rw [el, er]

variable (hm : ∀ i, x3 i = 0#32 ∨ x3 i = 1#32)
include hm

/-- The masked score at `(b, r, c)`. -/
theorem score_at (b : Fin 16) (r c : Fin 2048) :
    val_main_v9 (F := Ideal) x0 x1 x3 (ix3 b r c)
      = score (fun c' => dotQK x0 x1 b r c') (fun c' => x3 (ix3 b r c')) c := by
  rw [val_main_v9_apply, val_main_v6_apply, val_main_v8_apply, val_main_v3_apply, val_main_v5_apply,
    val_main_v4_apply, val_main_v0_apply, val_main_v7_apply, val_main_v2_apply, val_main_cst_apply,
    val_main_cst_0_apply, val_main_cst_1_apply, dot_at]
  simp only [Ideal.addf_def, Ideal.mulf_def, Ideal.subf_def, Ideal.hostDivf_def, Ideal.ofBits_def]
  rw [Consts.ofBits_one, div_sqrt_dkey]
  exact masked_score_arith _ _ _ (hm _)

omit hm in
/-- The row maximum at `(b, r)`: the fold of `max` from negative infinity over the keys' scores. -/
theorem rowMax_at (b : Fin 16) (r : Fin 2048) :
    val_main_v12 (F := Ideal) x0 x1 x3 (ix2 b r)
      = rowMax (fun c' : Fin 2048 => val_main_v9 (F := Ideal) x0 x1 x3 (ix3 b r c')) := by
  rw [val_main_v12_apply, val_main_v11_apply, val_main_cst_3_apply]
  unfold val_main_v10
  have h : S16x2048x2048.Reduces [2] S16x2048 := by decide
  rw [Host.reduce_eq_fold_single FloatOps.maximumf _ _ reducesTo_S16x2048x2048_S16x2048_d2 h h_S_ (ix2 b r),
    val_main_cst_2_apply]
  simp only [Ideal.ofBits_def, Ideal.maximumf_def, Consts.ofBits_neg_inf]
  rw [max_eq_right bot_le]
  unfold rowMax
  refine Finset.fold_congr ?_
  intro k _
  show val_main_v9 (F := Ideal) x0 x1 x3 (h.lift (ix2 b r) k) = _
  rw [lift_row h b r k]

/-- The row maximum at `(b, r)` is the maximum of the row's masked scores. -/
theorem rowMax_score_at (b : Fin 16) (r : Fin 2048) :
    val_main_v12 (F := Ideal) x0 x1 x3 (ix2 b r)
      = rowMax (score (fun c' => dotQK x0 x1 b r c') (fun c' => x3 (ix3 b r c'))) := by
  rw [rowMax_at]
  exact congrArg rowMax (funext fun c' => score_at x0 x1 x3 hm b r c')

/-- The shifted exponential at `(b, r, c)`. -/
theorem exp_at (b : Fin 16) (r c : Fin 2048) :
    val_main_v16 (F := Ideal) x0 x1 x3 (ix3 b r c)
      = expShift (score (fun c' => dotQK x0 x1 b r c') (fun c' => x3 (ix3 b r c'))) c := by
  have e : idx_main_v13 (idx_main_v14 (ix3 b r c)) = ix2 b r :=
    funext fun a => by match a with | ⟨0, _⟩ => rfl | ⟨1, _⟩ => rfl
  rw [val_main_v16_apply, val_main_v15_apply, val_main_v14_apply, val_main_v13_apply, e,
    rowMax_score_at x0 x1 x3 hm, score_at x0 x1 x3 hm]
  rfl

/-- The sum of the row's shifted exponentials at `(b, r)`, from zero. -/
theorem sum_at (b : Fin 16) (r : Fin 2048) :
    val_main_v17 (F := Ideal) x0 x1 x3 (ix2 b r)
      = ∑ c' : Fin 2048, expShift (score (fun c' => dotQK x0 x1 b r c') (fun c' => x3 (ix3 b r c'))) c' := by
  rw [val_main_v17_apply, val_main_cst_4_apply]
  simp only [Ideal.ofBits_def, Consts.ofBits_zero, zero_add]
  refine Finset.sum_congr rfl fun k _ => ?_
  have e : idx_main_v17 (ix2 b r) k = ix3 b r k :=
    funext fun a => by match a with | ⟨0, _⟩ => rfl | ⟨1, _⟩ => rfl | ⟨2, _⟩ => rfl
  rw [e]
  exact exp_at x0 x1 x3 hm b r k

/-- The attention weight at `(b, r, c)`. -/
theorem weight_at (b : Fin 16) (r c : Fin 2048) :
    val_main_v23 (F := Ideal) x0 x1 x3 (ix3 b r c) = weights x0 x1 x3 b r c := by
  have e : idx_main_v18 (idx_main_v19 (ix3 b r c)) = ix2 b r :=
    funext fun a => by match a with | ⟨0, _⟩ => rfl | ⟨1, _⟩ => rfl
  rw [val_main_v23_apply, val_main_v20_apply, val_main_v22_apply, val_main_v21_apply, val_main_cst_5_apply,
    val_main_v0_apply, val_main_v19_apply, val_main_v18_apply, e, sum_at x0 x1 x3 hm, exp_at x0 x1 x3 hm]
  simp only [Ideal.mulf_def, Ideal.subf_def, Ideal.hostDivf_def, Ideal.ofBits_def]
  rw [Consts.ofBits_one]
  exact masked_weight_arith _ _ (hm _)

/-- The attention output at `(b, r, d)`: the weights of row `(b, r)` against column `d` of the values. -/
theorem attention_at (b : Fin 16) (r : Fin 2048) (d : Fin 128) :
    val_main_v24 (F := Ideal) x0 x1 x2 x3 (ix3 b r d) = attention x0 x1 x2 x3 b r d := by
  rw [val_main_v24_apply]
  unfold attention
  refine Finset.sum_congr rfl fun k _ => ?_
  have el : lidx_main_v24 (ix3 b r d) k = ix3 b r k :=
    funext fun a => by match a with | ⟨0, _⟩ => rfl | ⟨1, _⟩ => rfl | ⟨2, _⟩ => rfl
  have er : ridx_main_v24 (ix3 b r d) k = ix3 b k d :=
    funext fun a => by match a with | ⟨0, _⟩ => rfl | ⟨1, _⟩ => rfl | ⟨2, _⟩ => rfl
  rw [el, er, weight_at x0 x1 x3 hm]

/-- The reference's second result is the array of attention weights. -/
theorem weights_eq : val_main_v23 (F := Ideal) x0 x1 x3 = weightsArr x0 x1 x3 := by
  funext i
  obtain ⟨b, r, c, rfl⟩ : ∃ (b : Fin 16) (r c : Fin 2048), i = ix3 b r c := ⟨i 0, i 1, i 2, eq_ix3 i⟩
  exact weight_at x0 x1 x3 hm b r c

/-- The reference's first result is the array of attention outputs. -/
theorem attention_eq : val_main_v24 (F := Ideal) x0 x1 x2 x3 = attentionArr x0 x1 x2 x3 := by
  funext i
  obtain ⟨b, r, d, rfl⟩ : ∃ (b : Fin 16) (r : Fin 2048) (d : Fin 128), i = ix3 b r d := ⟨i 0, i 1, i 2, eq_ix3 i⟩
  exact attention_at x0 x1 x2 x3 hm b r d

end Cert.Attn.Ref

end
-- ==== Proof.MaskDomain.lean ====
/-
  The precondition, decoded at the mask: every mask word is 0 or 1.

  The precondition is a conjunction of four "for all entries" tests reduced to one truth word: three say the float
  inputs are finite, the fourth that each mask word equals 0 or equals 1. The whole word being true makes the last
  conjunct true; a conjunction over all entries that is true is true at each entry; and the entry's test is the
  disjunction of two equality comparisons, each true exactly when the equation holds.
-/
import proofs.«158148_j23545010717013_2_alg».proof.Pre_finite_inputs
import Idealize.ShloMosaic.Lib.ReduceAll
import Idealize.ShloMosaic.Lib.Affine
import Idealize.ShloMosaic.Lib.ValueIdx

noncomputable section

namespace Cert.Attn.Domain

open Idealize.ShloMosaic Idealize.ShloMosaic.ValueIdx
open Cert.Pre_finite_inputs

/-- The rank-0 shape has one index. -/
instance : Subsingleton S_.Idx := ⟨fun a b => funext fun d => d.elim0⟩

/-- Where the precondition holds, each mask word is 0 or 1 (at any float instance: the test is on integers). -/
theorem mask_binary {F : FTy → Type} [FloatOps F] [Facts]
    (a0 a1 a2 : FVec F S16x2048x128 .f32) (a3 : IVec S16x2048x2048 32)
    (h : fn (F := F) a0 a1 a2 a3 = fun _ => 1#1) (i : S16x2048x2048.Idx) : a3 i = 0#32 ∨ a3 i = 1#32 := by
  have h0 := congrFun h ix0
  dsimp only [fn, fn_part1] at h0
  have h1 := (IntOp.andi_eq_one.1 h0).2
  have h2 := Host.reduce_andi_all _ _ _ _ _ h1 i
  rcases IntOp.ori_eq_one.1 h2 with h3 | h3
  · exact Or.inl (IntOp.cmpi_eq.1 h3)
  · exact Or.inr (IntOp.cmpi_eq.1 h3)

end Cert.Attn.Domain

end
-- ==== Proof.lean ====
/-
  Scaled dot-product attention with an integer mask: a blocked kernel against its whole-array reference, on the
  extended reals.

  For 16 batches of 2048 queries, keys and values with 128 features, and a mask word per (query, key): the score of
  key `c` for query `r` is `q_r · k_c / sqrt(128)` where the mask word is zero and `-1.0e7` elsewhere; a row's scores
  are shifted by their maximum, exponentiated and normalised by their sum; masked entries are then zeroed; the output
  is the weighted sum of the value rows. Both programs return the output and the weights.

  The two programs spell this differently in three places, and each is an identity on the extended reals:
  * the kernel multiplies by a folded `1 / sqrt(128)`, named here as the reciprocal of the single-precision divisor
    `11863283 / 2^20` the reference divides by; dividing by a nonzero real is multiplying by its reciprocal at every
    extended real (`preserves` is that naming);
  * the kernel selects on `mask = 0`; the reference computes `s * (1 - m) + m * fill` and `p * (1 - m)` with the word
    as a number — equal for a word that is 0 or 1, which the precondition states (for any other word they differ);
  * the kernel works on blocks of 512 query rows with the keys and values of the batch resident, and rounds queries,
    keys, values and weights to a narrower format on the way into its matrix products — the identity here; a row
    of attention depends only on its own query and mask rows and on its batch's keys and values, so the blocks the
    grid points write back are the blocks of the whole-array function, and they tile the arrays.
  Sums and maxima are over the same finite sets in both programs, and the extended reals' addition and maximum are
  commutative and associative, so no finiteness of the inputs is used.
-/
import proofs.«158148_j23545010717013_2_alg».proof.Defs
import proofs.«158148_j23545010717013_2_alg».proof.Proof.Gen.Kernel
import proofs.«158148_j23545010717013_2_alg».proof.Proof.Gen.Kernel.Skeleton
import proofs.«158148_j23545010717013_2_alg».proof.Proof.Gen.Kernel.Launch
import proofs.«158148_j23545010717013_2_alg».proof.Proof.Gen.Kernel.Points
import proofs.«158148_j23545010717013_2_alg».proof.Proof.Gen.Kernel.Frame
import proofs.«158148_j23545010717013_2_alg».proof.Proof.Gen.KernelIdeal
import proofs.«158148_j23545010717013_2_alg».proof.Proof.Gen.KernelIdeal.Skeleton
import proofs.«158148_j23545010717013_2_alg».proof.Proof.Gen.KernelIdeal.Launch
import proofs.«158148_j23545010717013_2_alg».proof.Proof.Gen.KernelIdeal.Points
import proofs.«158148_j23545010717013_2_alg».proof.Proof.Gen.KernelIdeal.Frame
import proofs.«158148_j23545010717013_2_alg».proof.Proof.Gen.ReferenceIdeal
import proofs.«158148_j23545010717013_2_alg».proof.Proof.Gen.Pre_finite_inputs
import proofs.«158148_j23545010717013_2_alg».proof.Proof.Gen.KernelIdeal.Value
import proofs.«158148_j23545010717013_2_alg».proof.Proof.Gen.ReferenceIdeal.Run
import proofs.«158148_j23545010717013_2_alg».proof.Proof.Gen.ReferenceIdeal.Read
import proofs.«158148_j23545010717013_2_alg».proof.Proof.Blocks
import proofs.«158148_j23545010717013_2_alg».proof.Proof.RefValue
import proofs.«158148_j23545010717013_2_alg».proof.Proof.MaskDomain
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The one rewrite of the idealization: the folded scale is named the reciprocal of the reference's divisor. -/
theorem preserves : Cert.preserves_Kernel_KernelIdeal :=
  IdealRules.named_const.statement Cert.KernelIdeal.κ "inv_sqrt_dkey" .f32 0x3DB504F3#32
    ((1048576 / 11863283 : ℝ) : EReal) rfl

/-- From memories agreeing on the arguments, with every mask word 0 or 1, both programs end with the attention
    outputs and the attention weights of the arguments. -/
theorem algebraic : Cert.algebraic_KernelIdeal_ReferenceIdeal := by
  intro m ρ m' ρ' hpre hagree
  refine ⟨fun c => Cert.Attn.Blocks.attentionOf m c, fun c => Cert.Attn.Blocks.weightsOf m c,
    Cert.Attn.Blocks.run m ρ, ?_⟩
  refine (θ_run Cert.ReferenceIdeal.defs _ _).mono (fun _ h c => ?_)
    (Cert.ReferenceIdeal.Value.run (F := Ideal) m' ρ')
  have hm : ∀ i, m' ((c.tc : Thread Cert.ReferenceIdeal.nD Cert.ReferenceIdeal.τ).loc Cert.ReferenceIdeal.main_arg3) i = 0#32
      ∨ m' ((c.tc : Thread Cert.ReferenceIdeal.nD Cert.ReferenceIdeal.τ).loc Cert.ReferenceIdeal.main_arg3) i = 1#32 := by
    rw [(hagree c).2.2.2]
    exact Cert.Attn.Domain.mask_binary _ _ _ _ (hpre c)
  refine ⟨(h c).1.trans ?_, (h c).2.1.trans ?_, (h c).2.2⟩
  · refine (Cert.ReferenceIdeal.Read.val_main_v24_eq _ _ _ _).trans
      ((Cert.Attn.Ref.attention_eq _ _ _ _ hm).trans ?_)
    rw [(hagree c).1, (hagree c).2.1, (hagree c).2.2.1, (hagree c).2.2.2]
  · refine (Cert.ReferenceIdeal.Read.val_main_v23_eq _ _ _).trans
      ((Cert.Attn.Ref.weights_eq _ _ _ hm).trans ?_)
    rw [(hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
